-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S6400000 : Shape := ⟨1, ![6400000]⟩
abbrev S8649x3 : Shape := ⟨2, ![8649, 3]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel
  bcast_S_S8649x3 : S_.BroadcastsInDim S8649x3 (![] : Fin 0 → Fin S8649x3.rank)
  reducesTo_S8649x3_S_d0_1 : S8649x3.ReducesTo [0, 1] S_

variable [Facts]

def fn_part1 {F : FTy → Type} [FloatOps F] (main_v13 : IVec S_ 1) (main_v16 : IVec S8649x3 1) : IVec S_ 1 :=
  let main_c_5 : IVec S_ 1 := constantI S_ 1 1#1
  let main_v17 : IVec S_ 1 := (fun x v => Host.reduce IntOp.andi x v reducesTo_S8649x3_S_d0_1 h_S_) main_v16 main_c_5
  let main_v18 : IVec S_ 1 := andi main_v13 main_v17
  main_v18

def fn {F : FTy → Type} [FloatOps F] (main_arg0 : IVec S100000 32) (main_arg1 : IVec S6400000 32) (main_arg2 : IVec S6400000 32) (main_arg3 : FVec F S6400000 .f32) (main_arg4 : FVec F S6400000 .f32) (main_arg5 : FVec F S8649x3 .f32) (main_arg6 : FVec F S8649x3 .f32) : IVec S_ 1 :=
  let main_v0 : FVec F S6400000 .f32 := Host.absf main_arg3
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  let main_v4 : FVec F S6400000 .f32 := Host.absf main_arg4
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S8649x3 .f32 := Host.absf main_arg5
  let main_cst_2 : FVec F S_ .f32 := constant S_ .f32 0x7F800000#32
  let main_v10 : FVec F S8649x3 .f32 := broadcastInDim S8649x3 ![] bcast_S_S8649x3 main_cst_2
  let main_v11 : IVec S8649x3 1 := cmpf .olt main_v9 main_v10
  let main_c_3 : IVec S_ 1 := constantI S_ 1 1#1
  let main_v12 : IVec S_ 1 := (fun x v => Host.reduce IntOp.andi x v reducesTo_S8649x3_S_d0_1 h_S_) main_v11 main_c_3
  let main_v13 : IVec S_ 1 := andi main_v8 main_v12
  let main_v14 : FVec F S8649x3 .f32 := Host.absf main_arg6
  let main_cst_4 : FVec F S_ .f32 := constant S_ .f32 0x7F800000#32
  let main_v15 : FVec F S8649x3 .f32 := broadcastInDim S8649x3 ![] bcast_S_S8649x3 main_cst_4
  let main_v16 : IVec S8649x3 1 := cmpf .olt main_v14 main_v15
  fn_part1 (F := F) main_v13 main_v16
-- ==== Kernel.lean ====
abbrev S100000 : Shape := ⟨1, ![100000]⟩
abbrev S6400000 : Shape := ⟨1, ![6400000]⟩
abbrev S8649x3 : Shape := ⟨2, ![8649, 3]⟩
abbrev S_ : Shape := ⟨0, ![]⟩
abbrev S6400000x1 : Shape := ⟨2, ![6400000, 1]⟩
abbrev S8649x1 : Shape := ⟨2, ![8649, 1]⟩
abbrev S8649 : Shape := ⟨1, ![8649]⟩
abbrev S50000x128 : Shape := ⟨2, ![50000, 128]⟩
abbrev S2000x128 : Shape := ⟨2, ![2000, 128]⟩

abbrev nBuf : Space → Nat
  | .hbm => 114
  | .vmem => 22
  | .smem => 0
  | _ => 0

abbrev bufTy : (tb : Table) → Fin (tcTables nBuf tb) → BufTy
  | .hbm, ⟨0, _⟩ => ⟨S100000, .i32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S6400000, .f32⟩
  | .hbm, ⟨5, _⟩ => ⟨S8649x3, .f32⟩
  | .hbm, ⟨6, _⟩ => ⟨S8649x3, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S6400000, .i32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000, .i32⟩
  | .hbm, ⟨25, _⟩ => ⟨S_, .i32⟩
  | .hbm, ⟨26, _⟩ => ⟨S6400000, .i32⟩
  | .hbm, ⟨27, _⟩ => ⟨S6400000, .i32⟩
  | .hbm, ⟨28, _⟩ => ⟨S6400000, .i32⟩
  | .hbm, ⟨29, _⟩ => ⟨S8649x1, .f32⟩
  | .hbm, ⟨30, _⟩ => ⟨S8649, .f32⟩
  | .hbm, ⟨31, _⟩ => ⟨S8649x1, .f32⟩
  | .hbm, ⟨32, _⟩ => ⟨S8649, .f32⟩
  | .hbm, ⟨33, _⟩ => ⟨S8649x1, .f32⟩
  | .hbm, ⟨34, _⟩ => ⟨S8649, .f32⟩
  | .hbm, ⟨35, _⟩ => ⟨S8649x1, .f32⟩
  | .hbm, ⟨36, _⟩ => ⟨S8649, .f32⟩
  | .hbm, ⟨37, _⟩ => ⟨S8649x1, .f32⟩
  | .hbm, ⟨38, _⟩ => ⟨S8649, .f32⟩
  | .hbm, ⟨39, _⟩ => ⟨S8649x1, .f32⟩
  | .hbm, ⟨40, _⟩ => ⟨S8649, .f32⟩
  | .hbm, ⟨41, _⟩ => ⟨S_, .i32⟩
  | .hbm, ⟨42, _⟩ => ⟨S6400000, .i32⟩
  | .hbm, ⟨43, _⟩ => ⟨S6400000, .i1⟩
  | .hbm, ⟨44, _⟩ => ⟨S_, .i32⟩
  | .hbm, ⟨45, _⟩ => ⟨S6400000, .i32⟩
  | .hbm, ⟨46, _⟩ => ⟨S6400000, .i32⟩
  | .hbm, ⟨47, _⟩ => ⟨S6400000, .i32⟩
  | .hbm, ⟨48, _⟩ => ⟨S6400000x1, .i32⟩
  | .hbm, ⟨49, _⟩ => ⟨S6400000, .f32⟩
  | .hbm, ⟨50, _⟩ => ⟨S_, .i32⟩
  | .hbm, ⟨51, _⟩ => ⟨S6400000, .i32⟩
  | .hbm, ⟨52, _⟩ => ⟨S6400000, .i1⟩
  | .hbm, ⟨53, _⟩ => ⟨S_, .i32⟩
  | .hbm, ⟨54, _⟩ => ⟨S6400000, .i32⟩
  | .hbm, ⟨55, _⟩ => ⟨S6400000, .i32⟩
  | .hbm, ⟨56, _⟩ => ⟨S6400000, .i32⟩
  | .hbm, ⟨57, _⟩ => ⟨S6400000x1, .i32⟩
  | .hbm, ⟨58, _⟩ => ⟨S6400000, .f32⟩
  | .hbm, ⟨59, _⟩ => ⟨S_, .i32⟩
  | .hbm, ⟨60, _⟩ => ⟨S6400000, .i32⟩
  | .hbm, ⟨61, _⟩ => ⟨S6400000, .i1⟩
  | .hbm, ⟨62, _⟩ => ⟨S_, .i32⟩
  | .hbm, ⟨63, _⟩ => ⟨S6400000, .i32⟩
  | .hbm, ⟨64, _⟩ => ⟨S6400000, .i32⟩
  | .hbm, ⟨65, _⟩ => ⟨S6400000, .i32⟩
  | .hbm, ⟨66, _⟩ => ⟨S6400000x1, .i32⟩
  | .hbm, ⟨67, _⟩ => ⟨S6400000, .f32⟩
  | .hbm, ⟨68, _⟩ => ⟨S_, .i32⟩
  | .hbm, ⟨69, _⟩ => ⟨S6400000, .i32⟩
  | .hbm, ⟨70, _⟩ => ⟨S6400000, .i1⟩
  | .hbm, ⟨71, _⟩ => ⟨S_, .i32⟩
  | .hbm, ⟨72, _⟩ => ⟨S6400000, .i32⟩
  | .hbm, ⟨73, _⟩ => ⟨S6400000, .i32⟩
  | .hbm, ⟨74, _⟩ => ⟨S6400000, .i32⟩
  | .hbm, ⟨75, _⟩ => ⟨S6400000x1, .i32⟩
  | .hbm, ⟨76, _⟩ => ⟨S6400000, .f32⟩
  | .hbm, ⟨77, _⟩ => ⟨S_, .i32⟩
  | .hbm, ⟨78, _⟩ => ⟨S6400000, .i32⟩
  | .hbm, ⟨79, _⟩ => ⟨S6400000, .i1⟩
  | .hbm, ⟨80, _⟩ => ⟨S_, .i32⟩
  | .hbm, ⟨81, _⟩ => ⟨S6400000, .i32⟩
  | .hbm, ⟨82, _⟩ => ⟨S6400000, .i32⟩
  | .hbm, ⟨83, _⟩ => ⟨S6400000, .i32⟩
  | .hbm, ⟨84, _⟩ => ⟨S6400000x1, .i32⟩
  | .hbm, ⟨85, _⟩ => ⟨S6400000, .f32⟩
  | .hbm, ⟨86, _⟩ => ⟨S_, .i32⟩
  | .hbm, ⟨87, _⟩ => ⟨S6400000, .i32⟩
  | .hbm, ⟨88, _⟩ => ⟨S6400000, .i1⟩
  | .hbm, ⟨89, _⟩ => ⟨S_, .i32⟩
  | .hbm, ⟨90, _⟩ => ⟨S6400000, .i32⟩
  | .hbm, ⟨91, _⟩ => ⟨S6400000, .i32⟩
  | .hbm, ⟨92, _⟩ => ⟨S6400000, .i32⟩
  | .hbm, ⟨93, _⟩ => ⟨S6400000x1, .i32⟩
  | .hbm, ⟨94, _⟩ => ⟨S6400000, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S50000x128, .i32⟩
  | .hbm, ⟨102, _⟩ => ⟨S50000x128, .i32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S6400000, .f32⟩
  | .hbm, ⟨107, _⟩ => ⟨S_, .f32⟩
  | .hbm, ⟨108, _⟩ => ⟨S100000, .f32⟩
  | .hbm, ⟨109, _⟩ => ⟨S6400000x1, .i32⟩
  | .hbm, ⟨110, _⟩ => ⟨S100000, .f32⟩
  | .hbm, ⟨111, _⟩ => ⟨S_, .f32⟩
  | .hbm, ⟨112, _⟩ => ⟨S100000, .f32⟩
  | .hbm, ⟨113, _⟩ => ⟨S100000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .i32⟩
  | .local _ .vmem, ⟨13, _⟩ => ⟨S2000x128, .i32⟩
  | .local _ .vmem, ⟨14, _⟩ => ⟨S2000x128, .i32⟩
  | .local _ .vmem, ⟨15, _⟩ => ⟨S2000x128, .i32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_14 : Ref sig .tc := ⟨.hbm, 86, rfl⟩
abbrev main_v64 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_16 : Ref sig .tc := ⟨.hbm, 111, rfl⟩
abbrev main_v86 : Ref sig .tc := ⟨.hbm, 112, rfl⟩
abbrev main_v87 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S8649x3_S8649x1_0_0 : S8649x3.Slices ![0, 0] S8649x1
  shapeCasts_S8649x1_S8649 : S8649x1.ShapeCasts S8649
  slices_S8649x3_S8649x1_0_1 : S8649x3.Slices ![0, 1] S8649x1
  slices_S8649x3_S8649x1_0_2 : S8649x3.Slices ![0, 2] S8649x1
  shapeCasts_S6400000_S50000x128 : S6400000.ShapeCasts S50000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S50000x128_S6400000 : S50000x128.ShapeCasts S6400000
  bcast_S_S100000 : S_.BroadcastsInDim S100000 (![] : Fin 0 → Fin S100000.rank)
  gather_S100000_S6400000x1_S6400000_n_0_n_n_0_1_1_wf : GatherDims.WF S100000 S6400000x1 S6400000 [] [0] [] [0] [] 1 ![1]
  gather_S8649_S6400000x1_S6400000_n_0_n_n_0_1_1_wf : GatherDims.WF S8649 S6400000x1 S6400000 [] [0] [] [0] [] 1 ![1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .i32 = 32 ∨ (Rect.block (s := S50000x128) S2000x128.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .i32 = 32 ∨ (Rect.block (s := S50000x128) S2000x128.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S8649_S6400000x1_S6400000_n_0_n_n_0_1_1 : GatherDims S8649 S6400000x1 S6400000 where
  offsetDims := []
  collapsedSliceDims := [0]
  operandBatchingDims := []
  startIndicesBatchingDims := []
  startIndexMap := [0]
  indexVectorDim := 1
  sliceSizes := ![1]
  wf := gather_S8649_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v71) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v73) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v74) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v75) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v76) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v77) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v78) S2000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v79) S2000x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v80) S2000x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v81) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000 : Shape := ⟨1, ![100000]⟩
abbrev S6400000 : Shape := ⟨1, ![6400000]⟩
abbrev S8649x3 : Shape := ⟨2, ![8649, 3]⟩
abbrev S_ : Shape := ⟨0, ![]⟩
abbrev S6400000x1 : Shape := ⟨2, ![6400000, 1]⟩
abbrev S6400000x3 : Shape := ⟨2, ![6400000, 3]⟩

abbrev nBuf : Space → Nat
  | .hbm => 92
  | .vmem => 0
  | .smem => 0
  | _ => 0

abbrev bufTy : (tb : Table) → Fin (tcTables nBuf tb) → BufTy
  | .hbm, ⟨0, _⟩ => ⟨S100000, .i32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S6400000, .f32⟩
  | .hbm, ⟨5, _⟩ => ⟨S8649x3, .f32⟩
  | .hbm, ⟨6, _⟩ => ⟨S8649x3, .f32⟩
  | .hbm, ⟨7, _⟩ => ⟨S_, .i32⟩
  | .hbm, ⟨8, _⟩ => ⟨S6400000, .i32⟩
  | .hbm, ⟨9, _⟩ => ⟨S6400000, .i1⟩
  | .hbm, ⟨10, _⟩ => ⟨S_, .i32⟩
  | .hbm, ⟨11, _⟩ => ⟨S6400000, .i32⟩
  | .hbm, ⟨12, _⟩ => ⟨S6400000, .i32⟩
  | .hbm, ⟨13, _⟩ => ⟨S6400000, .i32⟩
  | .hbm, ⟨14, _⟩ => ⟨S6400000x1, .i32⟩
  | .hbm, ⟨15, _⟩ => ⟨S6400000, .i32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000, .i32⟩
  | .hbm, ⟨25, _⟩ => ⟨S_, .i32⟩
  | .hbm, ⟨26, _⟩ => ⟨S6400000, .i32⟩
  | .hbm, ⟨27, _⟩ => ⟨S6400000, .i32⟩
  | .hbm, ⟨28, _⟩ => ⟨S6400000, .i32⟩
  | .hbm, ⟨29, _⟩ => ⟨S_, .i32⟩
  | .hbm, ⟨30, _⟩ => ⟨S6400000, .i32⟩
  | .hbm, ⟨31, _⟩ => ⟨S6400000, .i1⟩
  | .hbm, ⟨32, _⟩ => ⟨S_, .i32⟩
  | .hbm, ⟨33, _⟩ => ⟨S6400000, .i32⟩
  | .hbm, ⟨34, _⟩ => ⟨S6400000, .i32⟩
  | .hbm, ⟨35, _⟩ => ⟨S6400000, .i32⟩
  | .hbm, ⟨36, _⟩ => ⟨S6400000x1, .i32⟩
  | .hbm, ⟨37, _⟩ => ⟨S6400000x3, .f32⟩
  | .hbm, ⟨38, _⟩ => ⟨S_, .i32⟩
  | .hbm, ⟨39, _⟩ => ⟨S6400000, .i32⟩
  | .hbm, ⟨40, _⟩ => ⟨S6400000, .i1⟩
  | .hbm, ⟨41, _⟩ => ⟨S_, .i32⟩
  | .hbm, ⟨42, _⟩ => ⟨S6400000, .i32⟩
  | .hbm, ⟨43, _⟩ => ⟨S6400000, .i32⟩
  | .hbm, ⟨44, _⟩ => ⟨S6400000, .i32⟩
  | .hbm, ⟨45, _⟩ => ⟨S6400000x1, .i32⟩
  | .hbm, ⟨46, _⟩ => ⟨S6400000x3, .f32⟩
  | .hbm, ⟨47, _⟩ => ⟨S_, .i32⟩
  | .hbm, ⟨48, _⟩ => ⟨S100000, .i32⟩
  | .hbm, ⟨49, _⟩ => ⟨S100000, .i1⟩
  | .hbm, ⟨50, _⟩ => ⟨S100000, .f32⟩
  | .hbm, ⟨51, _⟩ => ⟨S_, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S6400000x3, .f32⟩
  | .hbm, ⟨56, _⟩ => ⟨S6400000x1, .f32⟩
  | .hbm, ⟨57, _⟩ => ⟨S6400000x3, .f32⟩
  | .hbm, ⟨58, _⟩ => ⟨S6400000x3, .f32⟩
  | .hbm, ⟨59, _⟩ => ⟨S6400000x3, .f32⟩
  | .hbm, ⟨60, _⟩ => ⟨S6400000x3, .f32⟩
  | .hbm, ⟨61, _⟩ => ⟨S_, .f32⟩
  | .hbm, ⟨62, _⟩ => ⟨S6400000, .f32⟩
  | .hbm, ⟨63, _⟩ => ⟨S_, .i32⟩
  | .hbm, ⟨64, _⟩ => ⟨S6400000, .i32⟩
  | .hbm, ⟨65, _⟩ => ⟨S6400000, .i1⟩
  | .hbm, ⟨66, _⟩ => ⟨S_, .i32⟩
  | .hbm, ⟨67, _⟩ => ⟨S6400000, .i32⟩
  | .hbm, ⟨68, _⟩ => ⟨S6400000, .i32⟩
  | .hbm, ⟨69, _⟩ => ⟨S6400000, .i32⟩
  | .hbm, ⟨70, _⟩ => ⟨S6400000x1, .i32⟩
  | .hbm, ⟨71, _⟩ => ⟨S6400000, .f32⟩
  | .hbm, ⟨72, _⟩ => ⟨S_, .i32⟩
  | .hbm, ⟨73, _⟩ => ⟨S6400000, .i32⟩
  | .hbm, ⟨74, _⟩ => ⟨S6400000, .i1⟩
  | .hbm, ⟨75, _⟩ => ⟨S_, .i32⟩
  | .hbm, ⟨76, _⟩ => ⟨S6400000, .i32⟩
  | .hbm, ⟨77, _⟩ => ⟨S6400000, .i32⟩
  | .hbm, ⟨78, _⟩ => ⟨S6400000, .i32⟩
  | .hbm, ⟨79, _⟩ => ⟨S6400000x1, .i32⟩
  | .hbm, ⟨80, _⟩ => ⟨S6400000, .f32⟩
  | .hbm, ⟨81, _⟩ => ⟨S6400000, .f32⟩
  | .hbm, ⟨82, _⟩ => ⟨S6400000, .f32⟩
  | .hbm, ⟨83, _⟩ => ⟨S6400000, .f32⟩
  | .hbm, ⟨84, _⟩ => ⟨S6400000, .f32⟩
  | .hbm, ⟨85, _⟩ => ⟨S_, .f32⟩
  | .hbm, ⟨86, _⟩ => ⟨S100000, .f32⟩
  | .hbm, ⟨87, _⟩ => ⟨S6400000x1, .i32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_call0_v0 : Ref sig .tc := ⟨.hbm, 52, rfl⟩
abbrev main_call0_v1 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000 : S_.BroadcastsInDim S100000 (![] : Fin 0 → Fin S100000.rank)
  bcast_S6400000x1_S6400000x3_0_1 : S6400000x1.BroadcastsInDim S6400000x3 (![0, 1] : Fin 2 → Fin S6400000x3.rank)
  reducesTo_S6400000x3_S6400000_d1 : S6400000x3.ReducesTo [1] S6400000
  h_S_ : 0 < S_.numel
  gather_S100000_S6400000x1_S6400000_n_0_n_n_0_1_1_wf : GatherDims.WF S100000 S6400000x1 S6400000 [] [0] [] [0] [] 1 ![1]
  gather_S8649x3_S6400000x1_S6400000x3_1_0_n_n_0_1_13_wf : GatherDims.WF S8649x3 S6400000x1 S6400000x3 [1] [0] [] [0] [] 1 ![1, 3]
  scatter_S100000_S6400000x1_S6400000_n_0_0_1_wf : ScatterDims.WF S100000 S6400000x1 S6400000 [] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S8649x3_S6400000x1_S6400000x3_1_0_n_n_0_1_13 : GatherDims S8649x3 S6400000x1 S6400000x3 where
  offsetDims := [1]
  collapsedSliceDims := [0]
  operandBatchingDims := []
  startIndicesBatchingDims := []
  startIndexMap := [0]
  indexVectorDim := 1
  sliceSizes := ![1, 3]
  wf := gather_S8649x3_S6400000x1_S6400000x3_1_0_n_n_0_1_13_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.LibGatherAxis0.lean ====
/-
  `stablehlo.gather` along axis 0 at one column of start indices, read at an index.

  What `x[idx]` lowers to when `idx : [E]` is viewed as `[E, 1]` (index_vector_dim 1): for a flat table
  `x : [N]` the result `[E]` (no offset axis), for a table of rows `x : [N, D]` the result `[E, D]`
  (offset axis 1, whole rows: slice sizes `[1, D]`). In both, result entry `e` (and column `k`) is the table at
  the row `idx[e, 0]` read as a signed integer and clamped into `[0, N - 1]` (and at column `k`).
-/
import Idealize.ShloMosaic.Lib.ValueIdx

noncomputable section

namespace Idealize.ShloMosaic.GatherAxis0

open Idealize.ShloMosaic Idealize.ShloMosaic.ValueIdx

variable {α : Type}

/-- The row of a table of `n` rows a start index reads: the word read signed, clamped into `[0, n - 1]`. -/
def row {w : Nat} (n : Nat) (hn : 0 < n) (x : BitVec w) : Fin n := ⟨min x.toInt.toNat (n - 1), by omega⟩

/-- The start-indices index `[e, 0]` of the result's row `e`. -/
abbrev colIdx {E : Nat} (e : Fin E) : (⟨2, ![E, 1]⟩ : Shape).Idx := ix2 e (⟨0, Nat.one_pos⟩ : Fin 1)

/-- The dimension numbers of a flat table `[N]` gathered at start indices `[E, 1]` into `[E]`. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into `[0, N - 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 (row N hN (idx (colIdx (y 0))))) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = colIdx (y 0) := by
    funext b; refine Fin.ext ?_
    match b with
    | ⟨0, _⟩ => rfl
    | ⟨1, _⟩ => rfl
  rw [hsi]
  rfl

/-- The dimension numbers of a table of rows `[N, D]` gathered whole-row at start indices `[E, 1]` into `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the table at the row `idx[e, 0]`, read signed and clamped into `[0, N - 1]`,
    and column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N D E wf) x idx (ix2 e k)
      = x (ix2 (row N hN (idx (colIdx e))) k) := by
  unfold Host.gather
  congr 1
  funext a
  refine Fin.ext ?_
  match a with
  | ⟨0, _⟩ =>
    show (rowDims N D E wf).start (ix2 e k) idx 0 + (rowDims N D E wf).batchCoord (ix2 e k) 0
      + (rowDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e k) ⟨List.idxOf (0 : Fin 2) (rowDims N D E wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D E wf).start (ix2 e k) idx 1 + (rowDims N D E wf).batchCoord (ix2 e k) 1
      + (rowDims N D E wf).offCoord (ix2 e k) 1 = k.val
    rw [GatherDims.batchCoord_eq_zero _ _ _ List.not_mem_nil]
    unfold GatherDims.start
    rw [dif_neg (show (1 : Fin 2) ∉ (rowDims N D E wf).startIndexMap from
      fun h => absurd (List.mem_singleton.mp h) (show ¬ (1 : Fin 2) = 0 by decide))]
    simp only [Nat.add_zero, Nat.zero_add]
    unfold GatherDims.offCoord
    rw [dif_pos (show (1 : Fin 2) ∈ (rowDims N D E wf).sKept from
      (GatherDims.mem_sKept _ _).mpr ⟨fun h => absurd (List.mem_singleton.mp h) (show ¬ (1 : Fin 2) = 0 by decide), List.not_mem_nil⟩)]
    rfl

end Idealize.ShloMosaic.GatherAxis0

end
-- ==== Proof.Spec.lean ====
/-
  The pair energy of one edge, as ONE function of the seven argument arrays, and the law that joins its two spellings.

  An edge `e` joins the atoms `src e` and `dst e`. Each end is looked up in the species table the way `x[i]` is: a
  negative index wraps once by the table's length, and the start index is then read signed and clamped into the table
  (`wrap`, and the gather's clamp `row`). The two species `s`, `t` name row `s + 92 t` of the two coefficient tables, looked up the same way.
  The edge's energy is `Z(s) · Z(t) · φ · switch / distance`, where `Z` is the species as a charge (zero unless positive)
  and `φ = Σ_k c_k · exp (-α_k · distance)` over the row's three columns.

  Two spellings of `φ` meet here: the sum over `k : Fin 3` started from zero, and the three terms written out with
  `-α` spelt `0 - α`. They are equal on the extended reals with no finiteness assumption: only `0 + x = x`,
  `0 - x = -x` and the sum over `Fin 3` unfolded are used (`unrolled_eq`).
-/
import Idealize.ShloMosaic.Lib.ValueIdx
import proofs.«138286_j19310172963097_2_alg».proof.Proof.LibGatherAxis0
import Idealize.ShloMosaic.PureOps.Ideal.Laws

noncomputable section

open scoped BigOperators

namespace Cert.PairRepulsion

open Idealize.ShloMosaic Idealize.ShloMosaic.ValueIdx Idealize.ShloMosaic.GatherAxis0

abbrev Atoms : Shape := ⟨1, ![100000]⟩
abbrev Edges : Shape := ⟨1, ![6400000]⟩
abbrev Table : Shape := ⟨2, ![8649, 3]⟩

/-- A possibly negative index into a table of `n` rows, wrapped once: `x + n` when `x < 0`, else `x` (32-bit words). -/
def wrap (n x : BitVec 32) : BitVec 32 := Scalar.select (IntOp.cmpi .slt x 0#32) (IntOp.addi x n) x

/-- A species as a charge: the integer as a real when positive, else zero. -/
def charge (w : BitVec 32) : EReal :=
  Scalar.select (IntOp.cmpi .sgt w 0#32) (FloatOps.sitofp (F := Ideal) .f32 w) (FloatOps.ofBits (F := Ideal) .f32 0x00000000#32)

section
variable (sp : IVec Atoms 32) (src dst : IVec Edges 32) (d sw : FVec Ideal Edges .f32) (cs al : FVec Ideal Table .f32)

/-- The species of the atom an edge end names. -/
def speciesAt (x : BitVec 32) : BitVec 32 := sp (ix1 (row 100000 (by decide) (wrap 100000#32 x)))

/-- The row of the coefficient tables edge `e` reads: species of the source plus 92 times species of the target. -/
def pairRow (e : Edges.Idx) : Fin 8649 :=
  row 8649 (by decide) (wrap 8649#32 (IntOp.addi (speciesAt sp (src e)) (IntOp.muli 92#32 (speciesAt sp (dst e)))))

/-- One screening term: `c_k · exp (-α_k · distance)`. -/
def term (e : Edges.Idx) (k : Fin 3) : EReal :=
  cs (ix2 (pairRow sp src dst e) k) * Ideal.exp (-(al (ix2 (pairRow sp src dst e) k)) * d e)

/-- THE EDGE'S ENERGY, the screening sum started from zero and taken over the three columns. -/
def pairEnergy (e : Edges.Idx) : EReal :=
  Ideal.div (charge (speciesAt sp (src e)) * charge (speciesAt sp (dst e))
      * (FloatOps.ofBits (F := Ideal) .f32 0x00000000#32 + ∑ k : Fin 3, term sp src dst d cs al e k) * sw e) (d e)

/-- The same with the three terms written out, each `-α` spelt `0 - α`: the three coefficients and exponents, the two
    species, the distance and the switch of ONE edge in, its energy out. -/
def lane (c0 c1 c2 al0 al1 al2 : EReal) (s t : BitVec 32) (dist swi : EReal) : EReal :=
  Ideal.div (charge s * charge t
      * (c0 * Ideal.exp ((FloatOps.ofBits (F := Ideal) .f32 0x00000000#32 - al0) * dist)
          + c1 * Ideal.exp ((FloatOps.ofBits (F := Ideal) .f32 0x00000000#32 - al1) * dist)
          + c2 * Ideal.exp ((FloatOps.ofBits (F := Ideal) .f32 0x00000000#32 - al2) * dist)) * swi) dist

/-- The unrolled spelling at edge `e` of the argument arrays. -/
def pairEnergyUnrolled (e : Edges.Idx) : EReal :=
  lane (cs (ix2 (pairRow sp src dst e) 0)) (cs (ix2 (pairRow sp src dst e) 1)) (cs (ix2 (pairRow sp src dst e) 2))
    (al (ix2 (pairRow sp src dst e) 0)) (al (ix2 (pairRow sp src dst e) 1)) (al (ix2 (pairRow sp src dst e) 2))
    (speciesAt sp (src e)) (speciesAt sp (dst e)) (d e) (sw e)

/-- The two spellings agree: `0 + x = x`, `0 - x = -x`, and a sum over three indices is its three terms. -/
theorem unrolled_eq (e : Edges.Idx) :
    pairEnergyUnrolled sp src dst d sw cs al e = pairEnergy sp src dst d sw cs al e := by
  have hz : (FloatOps.ofBits (F := Ideal) .f32 0x00000000#32 : EReal) = 0 := Ideal.ofBits_zero_f32
  unfold pairEnergyUnrolled lane pairEnergy term
  simp only [hz, Fin.sum_univ_three, zero_add, sub_eq_add_neg]

end

end Cert.PairRepulsion

end
-- ==== Proof.RefEdge.lean ====
/-
  The reference's per-edge array, read at an edge.

  Before its scatter the reference holds one number per edge (the quotient `Z Z φ switch / distance`). Read at edge
  `e`, operation by operation, it is `pairEnergy` of the argument arrays at `e`: each `x[i]` is a wrap of negative
  indices followed by a gather that clamps (`wrap`, `row`), the charge `Z` is looked up in a table computed from the
  species, the coefficient rows are whole rows of the two tables, and the screening sum runs over the row's columns.
-/
import proofs.«138286_j19310172963097_2_alg».proof.Proof.Gen.ReferenceIdeal.Read
import proofs.«138286_j19310172963097_2_alg».proof.Proof.Spec
import proofs.«138286_j19310172963097_2_alg».proof.Proof.LibGatherAxis0

noncomputable section

open scoped BigOperators

namespace Cert.ReferenceIdeal.RefValue

open Cert.ReferenceIdeal Cert.ReferenceIdeal.Read Idealize.ShloMosaic Idealize.ShloMosaic.ValueIdx
open Idealize.ShloMosaic.GatherAxis0 Cert.PairRepulsion

variable (x0 : IVec S100000 32) (x1 x2 : IVec S6400000 32) (x3 x4 : FVec Ideal S6400000 .f32)
  (x5 x6 : FVec Ideal S8649x3 .f32)

/-- The index column `[e, 0]` read back through a broadcast `[E] → [E, 1]` is `e`. -/
theorem col_back (e : S6400000.Idx) (f : S6400000x1.Idx → S6400000.Idx)
    (hf : ∀ i : S6400000x1.Idx, (f i 0).val = (i 0).val) : f (colIdx (e 0)) = e := by
  funext a; match a with | ⟨0, _⟩ => exact Fin.ext (hf _)

/-- The printed dimension numbers of the flat gathers are those of `flatDims`. -/
theorem flat_atoms : gather_S100000_S6400000x1_S6400000_n_0_n_n_0_1_1
    = flatDims 100000 6400000 (show GatherDims.WF ⟨1, ![100000]⟩ ⟨2, ![6400000, 1]⟩ ⟨1, ![6400000]⟩ [] [0] [] [0] [] 1 ![1]
        from gather_S100000_S6400000x1_S6400000_n_0_n_n_0_1_1.wf) := rfl

/-- The printed dimension numbers of the row gathers are those of `rowDims`. -/
theorem rows_table : gather_S8649x3_S6400000x1_S6400000x3_1_0_n_n_0_1_13
    = rowDims 8649 3 6400000 (show GatherDims.WF ⟨2, ![8649, 3]⟩ ⟨2, ![6400000, 1]⟩ ⟨2, ![6400000, 3]⟩ [1] [0] [] [0] [] 1 ![1, 3]
        from gather_S8649x3_S6400000x1_S6400000x3_1_0_n_n_0_1_13.wf) := rfl

/-! ## The wrapped indices -/

theorem wrap_src (e : S6400000.Idx) : val_main_v4 (F := Ideal) x1 e = wrap 100000#32 (x1 e) := by
  rw [val_main_v4_apply, val_main_v1_apply, val_main_v3_apply, val_main_v0_apply, val_main_v2_apply,
    val_main_c_apply, val_main_c_0_apply]; rfl

theorem wrap_dst (e : S6400000.Idx) : val_main_v11 (F := Ideal) x2 e = wrap 100000#32 (x2 e) := by
  rw [val_main_v11_apply, val_main_v8_apply, val_main_v10_apply, val_main_v7_apply, val_main_v9_apply,
    val_main_c_1_apply, val_main_c_2_apply]; rfl

theorem wrap_src' (e : S6400000.Idx) : val_main_v46 (F := Ideal) x1 e = wrap 100000#32 (x1 e) := by
  rw [val_main_v46_apply, val_main_v43_apply, val_main_v45_apply, val_main_v42_apply, val_main_v44_apply,
    val_main_c_10_apply, val_main_c_11_apply]; rfl

theorem wrap_dst' (e : S6400000.Idx) : val_main_v53 (F := Ideal) x2 e = wrap 100000#32 (x2 e) := by
  rw [val_main_v53_apply, val_main_v50_apply, val_main_v52_apply, val_main_v49_apply, val_main_v51_apply,
    val_main_c_12_apply, val_main_c_13_apply]; rfl

/-! ## The species at the two ends, and the row of the tables -/

theorem species_src (e : S6400000.Idx) : val_main_v6 (F := Ideal) x0 x1 e = speciesAt x0 (x1 e) := by
  unfold val_main_v6
  rw [flat_atoms, gather_flat_apply (by decide), val_main_v5_apply, col_back e idx_main_v5 (fun _ => rfl), wrap_src]; rfl

theorem species_dst (e : S6400000.Idx) : val_main_v13 (F := Ideal) x0 x2 e = speciesAt x0 (x2 e) := by
  unfold val_main_v13
  rw [flat_atoms, gather_flat_apply (by decide), val_main_v12_apply, col_back e idx_main_v12 (fun _ => rfl), wrap_dst]; rfl

theorem pair_word (e : S6400000.Idx) : val_main_v16 (F := Ideal) x0 x1 x2 e
    = IntOp.addi (speciesAt x0 (x1 e)) (IntOp.muli 92#32 (speciesAt x0 (x2 e))) := by
  rw [val_main_v16_apply, val_main_v15_apply, val_main_v14_apply, val_main_c_3_apply, species_src, species_dst]

theorem wrap_pair (e : S6400000.Idx) : val_main_v21 (F := Ideal) x0 x1 x2 e
    = wrap 8649#32 (IntOp.addi (speciesAt x0 (x1 e)) (IntOp.muli 92#32 (speciesAt x0 (x2 e)))) := by
  rw [val_main_v21_apply, val_main_v18_apply, val_main_v20_apply, val_main_v17_apply, val_main_v19_apply,
    val_main_c_4_apply, val_main_c_5_apply, pair_word]; rfl

theorem wrap_pair' (e : S6400000.Idx) : val_main_v28 (F := Ideal) x0 x1 x2 e
    = wrap 8649#32 (IntOp.addi (speciesAt x0 (x1 e)) (IntOp.muli 92#32 (speciesAt x0 (x2 e)))) := by
  rw [val_main_v28_apply, val_main_v25_apply, val_main_v27_apply, val_main_v24_apply, val_main_v26_apply,
    val_main_c_6_apply, val_main_c_7_apply, pair_word]; rfl

/-- The reduction's operand index `(e, k)` is `ix2` of its coordinates. -/
theorem red_idx (e : S6400000.Idx) (k : Fin 3) : idx_main_v41 e k = ix2 (e 0) k := by
  funext a; match a with | ⟨0, _⟩ => rfl | ⟨1, _⟩ => rfl

/-! ## The coefficient rows -/

theorem coeff_at (e : S6400000.Idx) (k : Fin 3) :
    val_main_v23 (F := Ideal) x0 x1 x2 x5 (idx_main_v41 e k) = x5 (ix2 (pairRow x0 x1 x2 e) k) := by
  unfold val_main_v23
  rw [red_idx]
  rw [rows_table]
  refine (gather_rows_apply (N := 8649) (D := 3) (E := 6400000) (by decide) _ x5 _ (e 0) k).trans ?_
  rw [val_main_v22_apply, col_back e idx_main_v22 (fun _ => rfl), wrap_pair]; rfl

theorem alpha_at (e : S6400000.Idx) (k : Fin 3) :
    val_main_v30 (F := Ideal) x0 x1 x2 x6 (idx_main_v41 e k) = x6 (ix2 (pairRow x0 x1 x2 e) k) := by
  unfold val_main_v30
  rw [red_idx]
  rw [rows_table]
  refine (gather_rows_apply (N := 8649) (D := 3) (E := 6400000) (by decide) _ x6 _ (e 0) k).trans ?_
  rw [val_main_v29_apply, col_back e idx_main_v29 (fun _ => rfl), wrap_pair']; rfl

/-! ## The charges -/

theorem charge_table (i : S100000.Idx) : val_main_v34 (F := Ideal) x0 i = charge (x0 i) := by
  rw [val_main_v34_apply, val_main_v32_apply, val_main_v33_apply, val_main_call0_v1_apply, val_main_call0_v0_apply,
    val_main_cst_apply, val_main_v31_apply, val_main_c_8_apply]; rfl

theorem charge_src (e : S6400000.Idx) : val_main_v48 (F := Ideal) x0 x1 e = charge (speciesAt x0 (x1 e)) := by
  unfold val_main_v48
  rw [flat_atoms, gather_flat_apply (by decide), val_main_v47_apply, col_back e idx_main_v47 (fun _ => rfl), wrap_src', charge_table]; rfl

theorem charge_dst (e : S6400000.Idx) : val_main_v55 (F := Ideal) x0 x2 e = charge (speciesAt x0 (x2 e)) := by
  unfold val_main_v55
  rw [flat_atoms, gather_flat_apply (by decide), val_main_v54_apply, col_back e idx_main_v54 (fun _ => rfl), wrap_dst', charge_table]; rfl

/-! ## The screening sum and the quotient -/

theorem dist_at (e : S6400000.Idx) (k : Fin 3) : val_main_v37 (F := Ideal) x3 (idx_main_v41 e k) = x3 e := by
  rw [val_main_v37_apply, val_main_v36_apply]
  exact congrArg x3 (funext fun a => match a with | ⟨0, _⟩ => rfl)

theorem screen_sum (e : S6400000.Idx) : val_main_v41 (F := Ideal) x0 x1 x2 x3 x5 x6 e
    = FloatOps.ofBits (F := Ideal) .f32 0x00000000#32 + ∑ k : Fin 3, term x0 x1 x2 x3 x5 x6 e k := by
  rw [val_main_v41_apply, val_main_cst_9_apply]
  refine congrArg (_ + ·) (Finset.sum_congr rfl fun k _ => ?_)
  rw [val_main_v40_apply, val_main_v39_apply, val_main_v38_apply, val_main_v35_apply, coeff_at, alpha_at, dist_at]
  rfl

/-- THE REFERENCE'S PER-EDGE ARRAY is `pairEnergy` of the arguments. -/
theorem edge_eq : val_main_v59 (F := Ideal) x0 x1 x2 x3 x4 x5 x6 = pairEnergy x0 x1 x2 x3 x4 x5 x6 := by
  funext e
  rw [val_main_v59_apply, val_main_v58_apply, val_main_v57_apply, val_main_v56_apply, charge_src, charge_dst, screen_sum]
  rfl

end Cert.ReferenceIdeal.RefValue

end
-- ==== Proof.KernelBody.lean ====
/-
  What the kernel's body leaves in its output block, lane by lane.

  The body loads its ten input blocks whole, computes with pointwise operations only, and stores one whole block. So the
  stored block at lane `j` is `lane` (the unrolled spelling of the pair energy) of the ten loaded blocks at `j`.
-/
import proofs.«138286_j19310172963097_2_alg».proof.Proof.Gen.KernelIdeal.Frame
import proofs.«138286_j19310172963097_2_alg».proof.Proof.Spec
import Idealize.ShloMosaic.Lib.Pipeline.Value
import Idealize.ShloMosaic.PureOps.Ideal

noncomputable section

namespace Cert.KernelIdeal.BodyValue

open Cert.KernelIdeal Cert.KernelIdeal.Gen Idealize.ShloMosaic Idealize.ShloMosaic.TcCoe Cert.PairRepulsion

/-- The block's origin is the zero offset. -/
theorem origin : (![0, 0] : Fin 2 → Nat) = fun _ => 0 := funext fun a => by fin_cases a <;> rfl

/-- `lane` applied at every index of ten blocks. -/
def laneV (x0 x1 x2 x3 x4 x5 : Vec Ideal S2000x128 .f32) (x6 x7 : Vec Ideal S2000x128 .i32)
    (x8 x9 : Vec Ideal S2000x128 .f32) : Vec Ideal S2000x128 .f32 :=
  fun j => lane (x0 j) (x1 j) (x2 j) (x3 j) (x4 j) (x5 j) (x6 j) (x7 j) (x8 j) (x9 j)

/-- THE BODY'S PAYLOAD — the one store's value as a function of the ten loads — is `lane` at every index: every
    operation of the body is pointwise, and its shape casts are between equal shapes. -/
theorem pay_eq (x0 x1 x2 x3 x4 x5 : Vec Ideal S2000x128 .f32) (x6 x7 : Vec Ideal S2000x128 .i32)
    (x8 x9 : Vec Ideal S2000x128 .f32) :
    k0_pay1 (F := Ideal) (k0_pay2 x8) (k0_pay3 x6 x6) (k0_pay4 x7 x7) (k0_pay5 x8 x0 x3) (k0_pay6 x1) (k0_pay7 x4) x2 x5 x9
      = laneV x0 x1 x2 x3 x4 x5 x6 x7 x8 x9 := by
  funext j
  simp only [k0_pay1, k0_pay2, k0_pay3, k0_pay4, k0_pay5, k0_pay6, k0_pay7, shapeCast_self]
  rfl

end Cert.KernelIdeal.BodyValue

end
-- ==== Proof.KernelReads.lean ====
/-
  Where each window's block sits at a grid point.

  The grid has 25 points; at point `t` every one of the eleven windows stages rows `2000 t … 2000 t + 1999` of its array
  (all 128 lanes): the printed index maps all send `t` to block `(t, 0)` (`idx_facts`, decided over the grid). So an input
  window's block read at the output block's index `j` is its array at the place the output block gives `j` (`read0` … `read9`).
-/
import proofs.«138286_j19310172963097_2_alg».proof.Proof.Gen.KernelIdeal.Frame
import proofs.«138286_j19310172963097_2_alg».proof.Proof.KernelBody

set_option maxRecDepth 16384

noncomputable section

namespace Cert.KernelIdeal.RegionValue

open Cert.KernelIdeal Cert.KernelIdeal.Gen Cert.KernelIdeal.BodyValue Cert.PairRepulsion
open Idealize.ShloMosaic Idealize.ShloMosaic.TcCoe Idealize.SL.Sem
open Idealize.ShloMosaic.Pipeline (Dat Cfg Window)

variable (m : (ℓ : Loc nD τ sig) → Buf (Elt Ideal) ℓ)

/-- The output array as a function of the ten input arrays: the pair energy's unrolled spelling, index by index. -/
def region (b0 b1 b2 b3 b4 b5 : S50000x128.Idx → EReal) (b6 b7 : S50000x128.Idx → BitVec 32)
    (b8 b9 : S50000x128.Idx → EReal) : S50000x128.Idx → EReal :=
  fun i => lane (b0 i) (b1 i) (b2 i) (b3 i) (b4 i) (b5 i) (b6 i) (b7 i) (b8 i) (b9 i)

/-- The printed index maps, decided over the 25 points: every input window's block index is the output window's, which
    is `(t, 0)`. -/
theorem idx_facts : ∀ t : Fin cfg0.N,
    (win0_0.index t (0 : Fin 2) = win0_10.index t (0 : Fin 2) ∧ win0_0.index t (1 : Fin 2) = win0_10.index t (1 : Fin 2))
    ∧ (win0_1.index t (0 : Fin 2) = win0_10.index t (0 : Fin 2) ∧ win0_1.index t (1 : Fin 2) = win0_10.index t (1 : Fin 2))
    ∧ (win0_2.index t (0 : Fin 2) = win0_10.index t (0 : Fin 2) ∧ win0_2.index t (1 : Fin 2) = win0_10.index t (1 : Fin 2))
    ∧ (win0_3.index t (0 : Fin 2) = win0_10.index t (0 : Fin 2) ∧ win0_3.index t (1 : Fin 2) = win0_10.index t (1 : Fin 2))
    ∧ (win0_4.index t (0 : Fin 2) = win0_10.index t (0 : Fin 2) ∧ win0_4.index t (1 : Fin 2) = win0_10.index t (1 : Fin 2))
    ∧ (win0_5.index t (0 : Fin 2) = win0_10.index t (0 : Fin 2) ∧ win0_5.index t (1 : Fin 2) = win0_10.index t (1 : Fin 2))
    ∧ (win0_6.index t (0 : Fin 2) = win0_10.index t (0 : Fin 2) ∧ win0_6.index t (1 : Fin 2) = win0_10.index t (1 : Fin 2))
    ∧ (win0_7.index t (0 : Fin 2) = win0_10.index t (0 : Fin 2) ∧ win0_7.index t (1 : Fin 2) = win0_10.index t (1 : Fin 2))
    ∧ (win0_8.index t (0 : Fin 2) = win0_10.index t (0 : Fin 2) ∧ win0_8.index t (1 : Fin 2) = win0_10.index t (1 : Fin 2))
    ∧ (win0_9.index t (0 : Fin 2) = win0_10.index t (0 : Fin 2) ∧ win0_9.index t (1 : Fin 2) = win0_10.index t (1 : Fin 2))
    ∧ win0_10.index t (0 : Fin 2) = t.val ∧ win0_10.index t (1 : Fin 2) = 0 :=
  (by decide +kernel : ∀ t : Fin grid0.N, _)

/-- Window 0's block at point `t`, read at the output block's index `j`, is its array at the output block's place for `j`. -/
theorem read0 (c : Dev nD) (t : Fin cfg0.N) (b : Buf (Elt Ideal) ((c : Thread nD τ).loc (Pipeline.arrRef spec0 0)))
    (j : ((cfg0.win 10).xblock (cfg0.grid.coords t)).Idx) :
    View.read (Elt Ideal) ((cfg0.win 0).blk t).view b ((win0 10).xinj (grid0.coords t) j)
      = b (((cfg0.win 10).blk t).view.emb j) := by
  obtain ⟨⟨e0, e1⟩, -, -, -, -, -, -, -, -, -, -, -⟩ := idx_facts t
  show b (((cfg0.win 0).blk t).view.emb j) = _
  refine congrArg b ?_
  funext a; apply Fin.ext
  match a with
  | ⟨0, _⟩ => show win0_0.index t (0 : Fin 2) * 2000 + 1 * (j 0).val = win0_10.index t (0 : Fin 2) * 2000 + 1 * (j 0).val; omega
  | ⟨1, _⟩ => show win0_0.index t (1 : Fin 2) * 128 + 1 * (j 1).val = win0_10.index t (1 : Fin 2) * 128 + 1 * (j 1).val; omega

/-- Window 1's block at point `t`, read at the output block's index `j`, is its array at the output block's place for `j`. -/
theorem read1 (c : Dev nD) (t : Fin cfg0.N) (b : Buf (Elt Ideal) ((c : Thread nD τ).loc (Pipeline.arrRef spec0 1)))
    (j : ((cfg0.win 10).xblock (cfg0.grid.coords t)).Idx) :
    View.read (Elt Ideal) ((cfg0.win 1).blk t).view b ((win0 10).xinj (grid0.coords t) j)
      = b (((cfg0.win 10).blk t).view.emb j) := by
  obtain ⟨-, ⟨e0, e1⟩, -, -, -, -, -, -, -, -, -, -⟩ := idx_facts t
  show b (((cfg0.win 1).blk t).view.emb j) = _
  refine congrArg b ?_
  funext a; apply Fin.ext
  match a with
  | ⟨0, _⟩ => show win0_1.index t (0 : Fin 2) * 2000 + 1 * (j 0).val = win0_10.index t (0 : Fin 2) * 2000 + 1 * (j 0).val; omega
  | ⟨1, _⟩ => show win0_1.index t (1 : Fin 2) * 128 + 1 * (j 1).val = win0_10.index t (1 : Fin 2) * 128 + 1 * (j 1).val; omega

/-- Window 2's block at point `t`, read at the output block's index `j`, is its array at the output block's place for `j`. -/
theorem read2 (c : Dev nD) (t : Fin cfg0.N) (b : Buf (Elt Ideal) ((c : Thread nD τ).loc (Pipeline.arrRef spec0 2)))
    (j : ((cfg0.win 10).xblock (cfg0.grid.coords t)).Idx) :
    View.read (Elt Ideal) ((cfg0.win 2).blk t).view b ((win0 10).xinj (grid0.coords t) j)
      = b (((cfg0.win 10).blk t).view.emb j) := by
  obtain ⟨-, -, ⟨e0, e1⟩, -, -, -, -, -, -, -, -, -⟩ := idx_facts t
  show b (((cfg0.win 2).blk t).view.emb j) = _
  refine congrArg b ?_
  funext a; apply Fin.ext
  match a with
  | ⟨0, _⟩ => show win0_2.index t (0 : Fin 2) * 2000 + 1 * (j 0).val = win0_10.index t (0 : Fin 2) * 2000 + 1 * (j 0).val; omega
  | ⟨1, _⟩ => show win0_2.index t (1 : Fin 2) * 128 + 1 * (j 1).val = win0_10.index t (1 : Fin 2) * 128 + 1 * (j 1).val; omega

/-- Window 3's block at point `t`, read at the output block's index `j`, is its array at the output block's place for `j`. -/
theorem read3 (c : Dev nD) (t : Fin cfg0.N) (b : Buf (Elt Ideal) ((c : Thread nD τ).loc (Pipeline.arrRef spec0 3)))
    (j : ((cfg0.win 10).xblock (cfg0.grid.coords t)).Idx) :
    View.read (Elt Ideal) ((cfg0.win 3).blk t).view b ((win0 10).xinj (grid0.coords t) j)
      = b (((cfg0.win 10).blk t).view.emb j) := by
  obtain ⟨-, -, -, ⟨e0, e1⟩, -, -, -, -, -, -, -, -⟩ := idx_facts t
  show b (((cfg0.win 3).blk t).view.emb j) = _
  refine congrArg b ?_
  funext a; apply Fin.ext
  match a with
  | ⟨0, _⟩ => show win0_3.index t (0 : Fin 2) * 2000 + 1 * (j 0).val = win0_10.index t (0 : Fin 2) * 2000 + 1 * (j 0).val; omega
  | ⟨1, _⟩ => show win0_3.index t (1 : Fin 2) * 128 + 1 * (j 1).val = win0_10.index t (1 : Fin 2) * 128 + 1 * (j 1).val; omega

/-- Window 4's block at point `t`, read at the output block's index `j`, is its array at the output block's place for `j`. -/
theorem read4 (c : Dev nD) (t : Fin cfg0.N) (b : Buf (Elt Ideal) ((c : Thread nD τ).loc (Pipeline.arrRef spec0 4)))
    (j : ((cfg0.win 10).xblock (cfg0.grid.coords t)).Idx) :
    View.read (Elt Ideal) ((cfg0.win 4).blk t).view b ((win0 10).xinj (grid0.coords t) j)
      = b (((cfg0.win 10).blk t).view.emb j) := by
  obtain ⟨-, -, -, -, ⟨e0, e1⟩, -, -, -, -, -, -, -⟩ := idx_facts t
  show b (((cfg0.win 4).blk t).view.emb j) = _
  refine congrArg b ?_
  funext a; apply Fin.ext
  match a with
  | ⟨0, _⟩ => show win0_4.index t (0 : Fin 2) * 2000 + 1 * (j 0).val = win0_10.index t (0 : Fin 2) * 2000 + 1 * (j 0).val; omega
  | ⟨1, _⟩ => show win0_4.index t (1 : Fin 2) * 128 + 1 * (j 1).val = win0_10.index t (1 : Fin 2) * 128 + 1 * (j 1).val; omega

/-- Window 5's block at point `t`, read at the output block's index `j`, is its array at the output block's place for `j`. -/
theorem read5 (c : Dev nD) (t : Fin cfg0.N) (b : Buf (Elt Ideal) ((c : Thread nD τ).loc (Pipeline.arrRef spec0 5)))
    (j : ((cfg0.win 10).xblock (cfg0.grid.coords t)).Idx) :
    View.read (Elt Ideal) ((cfg0.win 5).blk t).view b ((win0 10).xinj (grid0.coords t) j)
      = b (((cfg0.win 10).blk t).view.emb j) := by
  obtain ⟨-, -, -, -, -, ⟨e0, e1⟩, -, -, -, -, -, -⟩ := idx_facts t
  show b (((cfg0.win 5).blk t).view.emb j) = _
  refine congrArg b ?_
  funext a; apply Fin.ext
  match a with
  | ⟨0, _⟩ => show win0_5.index t (0 : Fin 2) * 2000 + 1 * (j 0).val = win0_10.index t (0 : Fin 2) * 2000 + 1 * (j 0).val; omega
  | ⟨1, _⟩ => show win0_5.index t (1 : Fin 2) * 128 + 1 * (j 1).val = win0_10.index t (1 : Fin 2) * 128 + 1 * (j 1).val; omega

/-- Window 6's block at point `t`, read at the output block's index `j`, is its array at the output block's place for `j`. -/
theorem read6 (c : Dev nD) (t : Fin cfg0.N) (b : Buf (Elt Ideal) ((c : Thread nD τ).loc (Pipeline.arrRef spec0 6)))
    (j : ((cfg0.win 10).xblock (cfg0.grid.coords t)).Idx) :
    View.read (Elt Ideal) ((cfg0.win 6).blk t).view b ((win0 10).xinj (grid0.coords t) j)
      = b (((cfg0.win 10).blk t).view.emb j) := by
  obtain ⟨-, -, -, -, -, -, ⟨e0, e1⟩, -, -, -, -, -⟩ := idx_facts t
  show b (((cfg0.win 6).blk t).view.emb j) = _
  refine congrArg b ?_
  funext a; apply Fin.ext
  match a with
  | ⟨0, _⟩ => show win0_6.index t (0 : Fin 2) * 2000 + 1 * (j 0).val = win0_10.index t (0 : Fin 2) * 2000 + 1 * (j 0).val; omega
  | ⟨1, _⟩ => show win0_6.index t (1 : Fin 2) * 128 + 1 * (j 1).val = win0_10.index t (1 : Fin 2) * 128 + 1 * (j 1).val; omega

/-- Window 7's block at point `t`, read at the output block's index `j`, is its array at the output block's place for `j`. -/
theorem read7 (c : Dev nD) (t : Fin cfg0.N) (b : Buf (Elt Ideal) ((c : Thread nD τ).loc (Pipeline.arrRef spec0 7)))
    (j : ((cfg0.win 10).xblock (cfg0.grid.coords t)).Idx) :
    View.read (Elt Ideal) ((cfg0.win 7).blk t).view b ((win0 10).xinj (grid0.coords t) j)
      = b (((cfg0.win 10).blk t).view.emb j) := by
  obtain ⟨-, -, -, -, -, -, -, ⟨e0, e1⟩, -, -, -, -⟩ := idx_facts t
  show b (((cfg0.win 7).blk t).view.emb j) = _
  refine congrArg b ?_
  funext a; apply Fin.ext
  match a with
  | ⟨0, _⟩ => show win0_7.index t (0 : Fin 2) * 2000 + 1 * (j 0).val = win0_10.index t (0 : Fin 2) * 2000 + 1 * (j 0).val; omega
  | ⟨1, _⟩ => show win0_7.index t (1 : Fin 2) * 128 + 1 * (j 1).val = win0_10.index t (1 : Fin 2) * 128 + 1 * (j 1).val; omega

/-- Window 8's block at point `t`, read at the output block's index `j`, is its array at the output block's place for `j`. -/
theorem read8 (c : Dev nD) (t : Fin cfg0.N) (b : Buf (Elt Ideal) ((c : Thread nD τ).loc (Pipeline.arrRef spec0 8)))
    (j : ((cfg0.win 10).xblock (cfg0.grid.coords t)).Idx) :
    View.read (Elt Ideal) ((cfg0.win 8).blk t).view b ((win0 10).xinj (grid0.coords t) j)
      = b (((cfg0.win 10).blk t).view.emb j) := by
  obtain ⟨-, -, -, -, -, -, -, -, ⟨e0, e1⟩, -, -, -⟩ := idx_facts t
  show b (((cfg0.win 8).blk t).view.emb j) = _
  refine congrArg b ?_
  funext a; apply Fin.ext
  match a with
  | ⟨0, _⟩ => show win0_8.index t (0 : Fin 2) * 2000 + 1 * (j 0).val = win0_10.index t (0 : Fin 2) * 2000 + 1 * (j 0).val; omega
  | ⟨1, _⟩ => show win0_8.index t (1 : Fin 2) * 128 + 1 * (j 1).val = win0_10.index t (1 : Fin 2) * 128 + 1 * (j 1).val; omega

/-- Window 9's block at point `t`, read at the output block's index `j`, is its array at the output block's place for `j`. -/
theorem read9 (c : Dev nD) (t : Fin cfg0.N) (b : Buf (Elt Ideal) ((c : Thread nD τ).loc (Pipeline.arrRef spec0 9)))
    (j : ((cfg0.win 10).xblock (cfg0.grid.coords t)).Idx) :
    View.read (Elt Ideal) ((cfg0.win 9).blk t).view b ((win0 10).xinj (grid0.coords t) j)
      = b (((cfg0.win 10).blk t).view.emb j) := by
  obtain ⟨-, -, -, -, -, -, -, -, -, ⟨e0, e1⟩, -, -⟩ := idx_facts t
  show b (((cfg0.win 9).blk t).view.emb j) = _
  refine congrArg b ?_
  funext a; apply Fin.ext
  match a with
  | ⟨0, _⟩ => show win0_9.index t (0 : Fin 2) * 2000 + 1 * (j 0).val = win0_10.index t (0 : Fin 2) * 2000 + 1 * (j 0).val; omega
  | ⟨1, _⟩ => show win0_9.index t (1 : Fin 2) * 128 + 1 * (j 1).val = win0_10.index t (1 : Fin 2) * 128 + 1 * (j 1).val; omega

end Cert.KernelIdeal.RegionValue

end
-- ==== Proof.KernelRegion.lean ====
/-
  The region's output array after the run, as one function of the arrays it was launched on.

  The grid has 25 points; at point `t` every one of the eleven windows stages rows `2000 t … 2000 t + 1999` of its array
  (all lanes). The body is lane-wise, so what point `t` writes back is block `t` of `region`: `lane` of the ten input
  arrays at the same index. The 25 blocks tile the 50000 rows, so the output array ends holding `region` everywhere.
-/
import proofs.«138286_j19310172963097_2_alg».proof.Proof.Gen.KernelIdeal.Frame
import proofs.«138286_j19310172963097_2_alg».proof.Proof.KernelBody
import proofs.«138286_j19310172963097_2_alg».proof.Proof.KernelReads

set_option maxRecDepth 16384

noncomputable section

namespace Cert.KernelIdeal.RegionValue

open Cert.KernelIdeal Cert.KernelIdeal.Gen Cert.KernelIdeal.BodyValue Cert.PairRepulsion
open Idealize.ShloMosaic Idealize.ShloMosaic.TcCoe Idealize.SL.Sem
open Idealize.ShloMosaic.Pipeline (Dat Cfg Window)

variable (m : (ℓ : Loc nD τ sig) → Buf (Elt Ideal) ℓ)

/-- `lane` respects equality of each of its ten arguments. -/
theorem lane_congr {a0 a1 a2 a3 a4 a5 a0' a1' a2' a3' a4' a5' : EReal} {s s' u u' : BitVec 32} {d d' w w' : EReal}
    (h0 : a0 = a0') (h1 : a1 = a1') (h2 : a2 = a2') (h3 : a3 = a3') (h4 : a4 = a4') (h5 : a5 = a5')
    (h6 : s = s') (h7 : u = u') (h8 : d = d') (h9 : w = w') :
    lane a0 a1 a2 a3 a4 a5 s u d w = lane a0' a1' a2' a3' a4' a5' s' u' d' w' := by
  subst h0 h1 h2 h3 h4 h5 h6 h7 h8 h9; rfl

set_option maxHeartbeats 3000000 in
/-- At point `t` every window stages the same rows, so `lane` of the ten input blocks is block `t` of `region` of the ten
    arrays — whatever the arrays hold. -/
theorem block_eq (c : Dev nD) (t : Fin cfg0.N)
    (b0 : Buf (Elt Ideal) ((c : Thread nD τ).loc (Pipeline.arrRef spec0 0)))
    (b1 : Buf (Elt Ideal) ((c : Thread nD τ).loc (Pipeline.arrRef spec0 1)))
    (b2 : Buf (Elt Ideal) ((c : Thread nD τ).loc (Pipeline.arrRef spec0 2)))
    (b3 : Buf (Elt Ideal) ((c : Thread nD τ).loc (Pipeline.arrRef spec0 3)))
    (b4 : Buf (Elt Ideal) ((c : Thread nD τ).loc (Pipeline.arrRef spec0 4)))
    (b5 : Buf (Elt Ideal) ((c : Thread nD τ).loc (Pipeline.arrRef spec0 5)))
    (b6 : Buf (Elt Ideal) ((c : Thread nD τ).loc (Pipeline.arrRef spec0 6)))
    (b7 : Buf (Elt Ideal) ((c : Thread nD τ).loc (Pipeline.arrRef spec0 7)))
    (b8 : Buf (Elt Ideal) ((c : Thread nD τ).loc (Pipeline.arrRef spec0 8)))
    (b9 : Buf (Elt Ideal) ((c : Thread nD τ).loc (Pipeline.arrRef spec0 9))) :
    (win0 10).cut (grid0.coords t)
      (laneV (View.read (Elt Ideal) ((cfg0.win 0).blk t).view b0)
        (View.read (Elt Ideal) ((cfg0.win 1).blk t).view b1)
        (View.read (Elt Ideal) ((cfg0.win 2).blk t).view b2)
        (View.read (Elt Ideal) ((cfg0.win 3).blk t).view b3)
        (View.read (Elt Ideal) ((cfg0.win 4).blk t).view b4)
        (View.read (Elt Ideal) ((cfg0.win 5).blk t).view b5)
        (View.read (Elt Ideal) ((cfg0.win 6).blk t).view b6)
        (View.read (Elt Ideal) ((cfg0.win 7).blk t).view b7)
        (View.read (Elt Ideal) ((cfg0.win 8).blk t).view b8)
        (View.read (Elt Ideal) ((cfg0.win 9).blk t).view b9))
      = View.read (Elt Ideal) ((View.whole main_v81).slice ((win0 10).rect t)) (region b0 b1 b2 b3 b4 b5 b6 b7 b8 b9) := by
  funext j
  show lane (View.read (Elt Ideal) ((cfg0.win 0).blk t).view b0 ((win0 10).xinj (grid0.coords t) j))
      (View.read (Elt Ideal) ((cfg0.win 1).blk t).view b1 ((win0 10).xinj (grid0.coords t) j))
      (View.read (Elt Ideal) ((cfg0.win 2).blk t).view b2 ((win0 10).xinj (grid0.coords t) j))
      (View.read (Elt Ideal) ((cfg0.win 3).blk t).view b3 ((win0 10).xinj (grid0.coords t) j))
      (View.read (Elt Ideal) ((cfg0.win 4).blk t).view b4 ((win0 10).xinj (grid0.coords t) j))
      (View.read (Elt Ideal) ((cfg0.win 5).blk t).view b5 ((win0 10).xinj (grid0.coords t) j))
      (View.read (Elt Ideal) ((cfg0.win 6).blk t).view b6 ((win0 10).xinj (grid0.coords t) j))
      (View.read (Elt Ideal) ((cfg0.win 7).blk t).view b7 ((win0 10).xinj (grid0.coords t) j))
      (View.read (Elt Ideal) ((cfg0.win 8).blk t).view b8 ((win0 10).xinj (grid0.coords t) j))
      (View.read (Elt Ideal) ((cfg0.win 9).blk t).view b9 ((win0 10).xinj (grid0.coords t) j))
    = lane (b0 (((cfg0.win 10).blk t).view.emb j)) (b1 (((cfg0.win 10).blk t).view.emb j)) (b2 (((cfg0.win 10).blk t).view.emb j)) (b3 (((cfg0.win 10).blk t).view.emb j)) (b4 (((cfg0.win 10).blk t).view.emb j)) (b5 (((cfg0.win 10).blk t).view.emb j)) (b6 (((cfg0.win 10).blk t).view.emb j)) (b7 (((cfg0.win 10).blk t).view.emb j)) (b8 (((cfg0.win 10).blk t).view.emb j)) (b9 (((cfg0.win 10).blk t).view.emb j))
  exact lane_congr (read0 c t b0 j) (read1 c t b1 j) (read2 c t b2 j) (read3 c t b3 j) (read4 c t b4 j) (read5 c t b5 j) (read6 c t b6 j) (read7 c t b7 j) (read8 c t b8 j) (read9 c t b9 j)

set_option maxHeartbeats 800000 in
/-- WHAT POINT `t` WRITES BACK is block `t` of `region` of the arrays the region was launched on. -/
theorem flushed_eq (c : Dev nD) (t : Fin cfg0.N) :
    (dats m 0 c).flushed 10 t = ((cfg0.win 10).blk t).view.read (Elt Ideal)
      (region (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9))) := by
  show (cfg0.win 10).cut (grid0.coords t) ((dats m 0 c).after 10 t) = _
  rw [after0_10]
  unfold out0_10
  rw [View.canon_unit_zero origin]
  simp only [View.ld_unit_zero (S := S2000x128) origin]
  rw [pay_eq]
  unfold iblk
  exact block_eq c t _ _ _ _ _ _ _ _ _ _

/-- An index of the array is in point `t`'s block iff each coordinate is in the block's range on its axis. -/
theorem mem_blk (t : Fin cfg0.N) (i : S50000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v81).slice (win0_10.rect t)).set ↔ _
  rw [View.set_slice_whole, Rect.mem_set_unit]
  exact Iff.rfl

/-- Row `r` is in the block of point `r / 2000`: the blocks cover the array. -/
theorem cover (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  refine ⟨⟨(i 0).val / 2000, by show (i 0).val / 2000 < 25; omega⟩, flush0_10 _, ?_⟩
  rw [mem_blk]
  obtain ⟨-, -, -, -, -, -, -, -, -, -, q0, q1⟩ := idx_facts ⟨(i 0).val / 2000, by show (i 0).val / 2000 < 25; omega⟩
  intro a
  match a with
  | ⟨0, _⟩ =>
    show win0_10.index _ (0 : Fin 2) * 2000 ≤ (i 0).val ∧ (i 0).val < win0_10.index _ (0 : Fin 2) * 2000 + 2000
    rw [q0]; show (i 0).val / 2000 * 2000 ≤ (i 0).val ∧ (i 0).val < (i 0).val / 2000 * 2000 + 2000; omega
  | ⟨1, _⟩ =>
    show win0_10.index _ (1 : Fin 2) * 128 ≤ (i 1).val ∧ (i 1).val < win0_10.index _ (1 : Fin 2) * 128 + 128
    rw [q1]; omega

/-- THE OUTPUT ARRAY after the run is `region` of the arrays the region was launched on. -/
theorem final (c : Dev nD) : (dats m 0 c).arrAt 10 cfg0.N = region (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) :=
  (dats m 0 c).arrAt_eq_of_cover 10 _ (fun t _ => flushed_eq m c t) cover

end Cert.KernelIdeal.RegionValue

end
-- ==== Proof.KernelHost.lean ====
/-
  The arrays the kernel's region is launched on, read at an index.

  Before the region the host looks the species of both ends of every edge up (`x[i]`: wrap, then a clamping gather),
  forms the row `s + 92 t` of the coefficient tables, gathers each of the six table columns at that row, and lays each
  per-edge array out as 50000 rows of 128 lanes. Read at `(r, l)` every one of them is the corresponding per-edge
  quantity at edge `128 r + l` (`edgeOf`).
-/
import proofs.«138286_j19310172963097_2_alg».proof.Proof.Gen.KernelIdeal
import proofs.«138286_j19310172963097_2_alg».proof.Proof.Spec
import Idealize.ShloMosaic.Lib.Pipeline.Value

noncomputable section

namespace Cert.KernelIdeal.HostValue

open Cert.KernelIdeal Cert.KernelIdeal.Facts₀ Cert.KernelIdeal.Facts
open Idealize.ShloMosaic Idealize.ShloMosaic.ValueIdx Idealize.ShloMosaic.GatherAxis0
open Cert.PairRepulsion

variable (a0 : IVec S100000 32) (a1 a2 : IVec S6400000 32) (a5 : FVec Ideal S8649x3 .f32)

/-- The printed dimension numbers of the gathers from the species table are those of `flatDims`. -/
theorem flat_atoms : gather_S100000_S6400000x1_S6400000_n_0_n_n_0_1_1
    = flatDims 100000 6400000 (show GatherDims.WF ⟨1, ![100000]⟩ ⟨2, ![6400000, 1]⟩ ⟨1, ![6400000]⟩ [] [0] [] [0] [] 1 ![1]
        from gather_S100000_S6400000x1_S6400000_n_0_n_n_0_1_1.wf) := rfl

/-- And so are those of the gathers from one column of a coefficient table. -/
theorem flat_table : gather_S8649_S6400000x1_S6400000_n_0_n_n_0_1_1
    = flatDims 8649 6400000 (show GatherDims.WF ⟨1, ![8649]⟩ ⟨2, ![6400000, 1]⟩ ⟨1, ![6400000]⟩ [] [0] [] [0] [] 1 ![1]
        from gather_S8649_S6400000x1_S6400000_n_0_n_n_0_1_1.wf) := rfl

/-- One word at every edge. -/
def splatI (n : BitVec 32) : IVec S6400000 32 := broadcastInDim S6400000 ![] bcast_S_S6400000 (constantI S_ 32 n)

theorem splatI_apply (n : BitVec 32) (e : S6400000.Idx) : splatI n e = n := by
  unfold splatI
  exact broadcastInDim_apply _ bcast_S_S6400000 _ e (fun a => a.elim0) (fun a => a.elim0)

/-- The wrap of negative indices, edge by edge. -/
def wrapV (n : BitVec 32) (x : IVec S6400000 32) : IVec S6400000 32 :=
  select (cmpi .slt x (splatI 0#32)) (addi x (splatI n)) x

theorem wrapV_apply (n : BitVec 32) (x : IVec S6400000 32) (e : S6400000.Idx) : wrapV n x e = wrap n (x e) := by
  show Scalar.select (IntOp.cmpi .slt (x e) (splatI 0#32 e)) (IntOp.addi (x e) (splatI n e)) (x e) = _
  rw [splatI_apply, splatI_apply]; rfl

/-- The per-edge indices as one column `[E, 1]` of start indices. -/
def colV (x : IVec S6400000 32) : IVec S6400000x1 32 := broadcastInDim S6400000x1 ![0] bcast_S6400000_S6400000x1_0 x

theorem colV_apply (x : IVec S6400000 32) (e : S6400000.Idx) : colV x (colIdx (e 0)) = x e := by
  unfold colV
  exact broadcastInDim_apply _ bcast_S6400000_S6400000x1_0 x _ e (fun a => match a with
    | ⟨0, _⟩ => by show (e 0).val = if (6400000 : Nat) = 1 then 0 else (e 0).val; rw [if_neg (by decide)])

/-- The species at one end of every edge. -/
def speciesV (x : IVec S6400000 32) : IVec S6400000 32 :=
  Host.gather gather_S100000_S6400000x1_S6400000_n_0_n_n_0_1_1 a0 (colV (wrapV 100000#32 x))

theorem speciesV_apply (x : IVec S6400000 32) (e : S6400000.Idx) : speciesV a0 x e = speciesAt a0 (x e) := by
  unfold speciesV
  rw [flat_atoms, gather_flat_apply (by decide), colV_apply, wrapV_apply]; rfl

/-- The word `s + 92 t` of every edge. -/
def pairV : IVec S6400000 32 := addi (speciesV a0 a1) (muli (splatI 92#32) (speciesV a0 a2))

theorem pairV_apply (e : S6400000.Idx) :
    pairV a0 a1 a2 e = IntOp.addi (speciesAt a0 (a1 e)) (IntOp.muli 92#32 (speciesAt a0 (a2 e))) := by
  show IntOp.addi (speciesV a0 a1 e) (IntOp.muli (splatI 92#32 e) (speciesV a0 a2 e)) = _
  rw [speciesV_apply, speciesV_apply, splatI_apply]

/-- One column of a coefficient table as a flat table. -/
def columnV (off : Fin 2 → Nat) (h : S8649x3.Slices off S8649x1) (t : FVec Ideal S8649x3 .f32) : FVec Ideal S8649 .f32 :=
  fun i => shapeCast S8649 (extractStridedSlice S8649x1 off t h) shapeCasts_S8649x1_S8649 i

theorem columnV_apply (k : Fin 3) (h : S8649x3.Slices ![0, k.val] S8649x1) (t : FVec Ideal S8649x3 .f32) (r : Fin 8649) :
    columnV ![0, k.val] h t (ix1 r) = t (ix2 r k) := by
  unfold columnV
  rw [shapeCast_apply _ shapeCasts_S8649x1_S8649 (ix1 r) (ix2 r (⟨0, Nat.one_pos⟩ : Fin 1))
    (by rw [Shape.rowMajor_val_one, Shape.rowMajor_val_two]; show r.val * 1 + 0 = r.val; omega)]
  exact extractStridedSlice_apply _ t h _ (ix2 r k) (fun a => match a with
    | ⟨0, _⟩ => by show r.val = 0 + r.val; omega
    | ⟨1, _⟩ => by show k.val = k.val + 0; omega)

/-- A flat coefficient table gathered at every edge's row. -/
def coeffV (col : FVec Ideal S8649 .f32) : FVec Ideal S6400000 .f32 :=
  Host.gather gather_S8649_S6400000x1_S6400000_n_0_n_n_0_1_1 col (colV (wrapV 8649#32 (pairV a0 a1 a2)))

theorem coeffV_apply (col : FVec Ideal S8649 .f32) (e : S6400000.Idx) :
    coeffV a0 a1 a2 col e = col (ix1 (pairRow a0 a1 a2 e)) := by
  unfold coeffV
  rw [flat_table, gather_flat_apply (by decide), colV_apply, wrapV_apply, pairV_apply]; rfl

/-- A per-edge array laid out as 50000 rows of 128 lanes. -/
def tileV {α : Type} (x : S6400000.Idx → α) : S50000x128.Idx → α :=
  fun i => shapeCast S50000x128 x shapeCasts_S6400000_S50000x128 i

/-- The edge at row `r`, lane `l`: `128 r + l`. -/
def edgeOf (i : S50000x128.Idx) : S6400000.Idx :=
  ix1 ⟨(i 0).val * 128 + (i 1).val, by have := idx2_lt0 i; have := idx2_lt1 i; omega⟩

theorem tileV_apply {α : Type} (x : S6400000.Idx → α) (i : S50000x128.Idx) : tileV x i = x (edgeOf i) := by
  unfold tileV
  exact shapeCast_apply x shapeCasts_S6400000_S50000x128 i (edgeOf i)
    (by rw [Shape.rowMajor_val_one, Shape.rowMajor_val_two]; rfl)

/-- The laid-out array read back flat: entry `e` is at row `e / 128`, lane `e % 128`. -/
def flatV {α : Type} (x : S50000x128.Idx → α) : S6400000.Idx → α :=
  fun e => shapeCast S6400000 x shapeCasts_S50000x128_S6400000 e

theorem flatV_tile {α : Type} (g : S6400000.Idx → α) (x : S50000x128.Idx → α) (hx : ∀ i, x i = g (edgeOf i)) :
    flatV x = g := by
  funext e
  unfold flatV
  have he : (e 0).val < 6400000 := (e 0).isLt
  rw [shapeCast_apply x shapeCasts_S50000x128_S6400000 e
    (ix2 (⟨(e 0).val / 128, by omega⟩ : Fin 50000) (⟨(e 0).val % 128, Nat.mod_lt _ (by decide)⟩ : Fin 128))
    (by rw [Shape.rowMajor_val_one, Shape.rowMajor_val_two]; show (e 0).val / 128 * 128 + (e 0).val % 128 = (e 0).val; omega),
    hx]
  refine congrArg g ?_
  funext a; match a with
  | ⟨0, _⟩ => exact Fin.ext (by show (e 0).val / 128 * 128 + (e 0).val % 128 = (e 0).val; omega)

/-! ## The ten arrays of the region at `(r, l)` -/

theorem coeff_tile (k : Fin 3) (h : S8649x3.Slices ![0, k.val] S8649x1) (t : FVec Ideal S8649x3 .f32) (i : S50000x128.Idx) :
    tileV (coeffV a0 a1 a2 (columnV ![0, k.val] h t)) i = t (ix2 (pairRow a0 a1 a2 (edgeOf i)) k) := by
  rw [tileV_apply, coeffV_apply, columnV_apply]

theorem species_tile (x : IVec S6400000 32) (i : S50000x128.Idx) :
    tileV (speciesV a0 x) i = speciesAt a0 (x (edgeOf i)) := by
  rw [tileV_apply, speciesV_apply]

end Cert.KernelIdeal.HostValue

end
-- ==== Proof.Args.lean ====
/-
  The seven argument arrays of the kernel's program as launched on a core, named: species per atom, the two ends of every
  edge, distance and switch per edge, and the two tables of coefficients and exponents.
-/
import proofs.«138286_j19310172963097_2_alg».proof.KernelIdeal
import Idealize.ShloMosaic.PureOps.Ideal

noncomputable section

namespace Cert.KernelIdeal.EntryValue

open Cert.KernelIdeal Idealize.ShloMosaic Idealize.ShloMosaic.TcCoe Idealize.SL.Sem

variable (m : (ℓ : Loc nD τ sig) → Buf (Elt Ideal) ℓ)

abbrev species (c : Dev nD) : IVec S100000 32 := m ((c : Thread nD τ).loc main_arg0)
abbrev edgeSrc (c : Dev nD) : IVec S6400000 32 := m ((c : Thread nD τ).loc main_arg1)
abbrev edgeDst (c : Dev nD) : IVec S6400000 32 := m ((c : Thread nD τ).loc main_arg2)
abbrev distances (c : Dev nD) : FVec Ideal S6400000 .f32 := m ((c : Thread nD τ).loc main_arg3)
abbrev switch (c : Dev nD) : FVec Ideal S6400000 .f32 := m ((c : Thread nD τ).loc main_arg4)
abbrev tableC (c : Dev nD) : FVec Ideal S8649x3 .f32 := m ((c : Thread nD τ).loc main_arg5)
abbrev tableA (c : Dev nD) : FVec Ideal S8649x3 .f32 := m ((c : Thread nD τ).loc main_arg6)

end Cert.KernelIdeal.EntryValue

end
-- ==== Proof.EntryA.lean ====
/-
  The region's first five arrays as the host operations before it leave them: the three coefficient columns and the
  first two exponent columns, each gathered at every edge's row and laid out 50000 × 128.
-/
import proofs.«138286_j19310172963097_2_alg».proof.Proof.Gen.KernelIdeal.Frame
import proofs.«138286_j19310172963097_2_alg».proof.Proof.KernelHost
import proofs.«138286_j19310172963097_2_alg».proof.Proof.Args
import Idealize.ShloMosaic.Lib.StableHlo.Run
import Idealize.ShloMosaic.PureOps.Ideal

noncomputable section

namespace Cert.KernelIdeal.EntryValue

open Cert.KernelIdeal Cert.KernelIdeal.Gen Cert.KernelIdeal.HostValue
open Idealize.ShloMosaic Idealize.ShloMosaic.TcCoe Idealize.SL.Sem Idealize.ShloMosaic.StableHlo

variable (m : (ℓ : Loc nD τ sig) → Buf (Elt Ideal) ℓ)

set_option maxHeartbeats 4000000 in
/-- Coefficient column 0 at every edge. -/
theorem entry_c0 (c : Dev nD) : (V m c main_v71 : S50000x128.Idx → EReal) = tileV (coeffV (species m c) (edgeSrc m c) (edgeDst m c) (columnV ![0, 0] slices_S8649x3_S8649x1_0_0 (tableC m c))) := by
  show StableHlo.after hostOps0 (fun b => m (c, b)) (Proc.devRef .tc main_v71) = _
  after_results_simp
  rfl

set_option maxHeartbeats 4000000 in
/-- Coefficient column 1 at every edge. -/
theorem entry_c1 (c : Dev nD) : (V m c main_v72 : S50000x128.Idx → EReal) = tileV (coeffV (species m c) (edgeSrc m c) (edgeDst m c) (columnV ![0, 1] slices_S8649x3_S8649x1_0_1 (tableC m c))) := by
  show StableHlo.after hostOps0 (fun b => m (c, b)) (Proc.devRef .tc main_v72) = _
  after_results_simp
  rfl

set_option maxHeartbeats 4000000 in
/-- Coefficient column 2 at every edge. -/
theorem entry_c2 (c : Dev nD) : (V m c main_v73 : S50000x128.Idx → EReal) = tileV (coeffV (species m c) (edgeSrc m c) (edgeDst m c) (columnV ![0, 2] slices_S8649x3_S8649x1_0_2 (tableC m c))) := by
  show StableHlo.after hostOps0 (fun b => m (c, b)) (Proc.devRef .tc main_v73) = _
  after_results_simp
  rfl

set_option maxHeartbeats 4000000 in
/-- Exponent column 0 at every edge. -/
theorem entry_a0 (c : Dev nD) : (V m c main_v74 : S50000x128.Idx → EReal) = tileV (coeffV (species m c) (edgeSrc m c) (edgeDst m c) (columnV ![0, 0] slices_S8649x3_S8649x1_0_0 (tableA m c))) := by
  show StableHlo.after hostOps0 (fun b => m (c, b)) (Proc.devRef .tc main_v74) = _
  after_results_simp
  rfl

set_option maxHeartbeats 4000000 in
/-- Exponent column 1 at every edge. -/
theorem entry_a1 (c : Dev nD) : (V m c main_v75 : S50000x128.Idx → EReal) = tileV (coeffV (species m c) (edgeSrc m c) (edgeDst m c) (columnV ![0, 1] slices_S8649x3_S8649x1_0_1 (tableA m c))) := by
  show StableHlo.after hostOps0 (fun b => m (c, b)) (Proc.devRef .tc main_v75) = _
  after_results_simp
  rfl

end Cert.KernelIdeal.EntryValue

end
-- ==== Proof.EntryB.lean ====
/-
  The region's last five arrays as the host operations before it leave them: the third exponent column, the species at
  the two ends of every edge, the distances and the switch, each laid out 50000 × 128.
-/
import proofs.«138286_j19310172963097_2_alg».proof.Proof.Gen.KernelIdeal.Frame
import proofs.«138286_j19310172963097_2_alg».proof.Proof.KernelHost
import proofs.«138286_j19310172963097_2_alg».proof.Proof.Args
import Idealize.ShloMosaic.Lib.StableHlo.Run
import Idealize.ShloMosaic.PureOps.Ideal

noncomputable section

namespace Cert.KernelIdeal.EntryValue

open Cert.KernelIdeal Cert.KernelIdeal.Gen Cert.KernelIdeal.HostValue
open Idealize.ShloMosaic Idealize.ShloMosaic.TcCoe Idealize.SL.Sem Idealize.ShloMosaic.StableHlo

variable (m : (ℓ : Loc nD τ sig) → Buf (Elt Ideal) ℓ)

set_option maxHeartbeats 4000000 in
/-- Exponent column 2 at every edge. -/
theorem entry_a2 (c : Dev nD) : (V m c main_v76 : S50000x128.Idx → EReal) = tileV (coeffV (species m c) (edgeSrc m c) (edgeDst m c) (columnV ![0, 2] slices_S8649x3_S8649x1_0_2 (tableA m c))) := by
  show StableHlo.after hostOps0 (fun b => m (c, b)) (Proc.devRef .tc main_v76) = _
  after_results_simp
  rfl

set_option maxHeartbeats 4000000 in
/-- The species at every edge's source. -/
theorem entry_src (c : Dev nD) : (V m c main_v77 : S50000x128.Idx → BitVec 32) = tileV (speciesV (species m c) (edgeSrc m c)) := by
  show StableHlo.after hostOps0 (fun b => m (c, b)) (Proc.devRef .tc main_v77) = _
  after_results_simp
  rfl

set_option maxHeartbeats 4000000 in
/-- The species at every edge's target. -/
theorem entry_dst (c : Dev nD) : (V m c main_v78 : S50000x128.Idx → BitVec 32) = tileV (speciesV (species m c) (edgeDst m c)) := by
  show StableHlo.after hostOps0 (fun b => m (c, b)) (Proc.devRef .tc main_v78) = _
  after_results_simp
  rfl

set_option maxHeartbeats 4000000 in
/-- The distances. -/
theorem entry_dist (c : Dev nD) : (V m c main_v79 : S50000x128.Idx → EReal) = tileV (distances m c) := by
  show StableHlo.after hostOps0 (fun b => m (c, b)) (Proc.devRef .tc main_v79) = _
  after_results_simp
  rfl

set_option maxHeartbeats 4000000 in
/-- The switch. -/
theorem entry_sw (c : Dev nD) : (V m c main_v80 : S50000x128.Idx → EReal) = tileV (switch m c) := by
  show StableHlo.after hostOps0 (fun b => m (c, b)) (Proc.devRef .tc main_v80) = _
  after_results_simp
  rfl

end Cert.KernelIdeal.EntryValue

end
-- ==== Proof.KernelResult.lean ====
/-
  The kernel program's result, as one function of its argument arrays.

  The region's output array is `region` of the ten arrays the host prepared (KernelRegion); each of those, read at row
  `r` and lane `l`, is a per-edge quantity at edge `128 r + l` (KernelHost, over the entry terms of EntryA / EntryB). So the
  output read back flat is the pair energy of every edge, in its unrolled spelling, hence `pairEnergy` (`unrolled_eq`).
  After the region the host scatter-adds the per-edge energies into their source atoms and scales by a constant: `tail`.
-/
import proofs.«138286_j19310172963097_2_alg».proof.Proof.Gen.KernelIdeal.Frame
import proofs.«138286_j19310172963097_2_alg».proof.Proof.KernelRegion
import proofs.«138286_j19310172963097_2_alg».proof.Proof.EntryA
import proofs.«138286_j19310172963097_2_alg».proof.Proof.EntryB
import Idealize.ShloMosaic.Lib.StableHlo.Run

noncomputable section

namespace Cert.KernelIdeal.ResultValue

open Cert.KernelIdeal Cert.KernelIdeal.Gen Cert.KernelIdeal.HostValue Cert.KernelIdeal.EntryValue
open Cert.KernelIdeal.RegionValue Cert.PairRepulsion
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The host's last lines: the per-edge energies scatter-added into their source atoms, times the unit constant. -/
def tail (src : IVec S6400000 32) (pe : FVec Ideal S6400000 .f32) : FVec Ideal S100000 .f32 :=
  mulf (broadcastInDim S100000 ![] Facts₀.bcast_S_S100000 (constant S_ .f32 0x3E877828#32))
    (Host.scatterAdd scatter_S100000_S6400000x1_S6400000_n_0_0_1
      (broadcastInDim S100000 ![] Facts₀.bcast_S_S100000 (constant S_ .f32 0x00000000#32)) (colV src) pe)

set_option maxHeartbeats 1000000 in
/-- THE REGION'S OUTPUT, READ FLAT, is the pair energy of every edge. -/
theorem edges (c : Dev nD) :
    flatV (region (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9))) = pairEnergy (species m c) (edgeSrc m c) (edgeDst m c) (distances m c) (switch m c) (tableC m c) (tableA m c) := by
  refine flatV_tile _ _ (fun i => ?_)
  rw [← unrolled_eq]
  have h0 : V m c (Pipeline.arrRef spec0 0) i = tableC m c (ix2 (pairRow (species m c) (edgeSrc m c) (edgeDst m c) (edgeOf i)) 0) :=
    (congrFun (entry_c0 m c) i).trans (coeff_tile _ _ _ (0 : Fin 3) _ _ i)
  have h1 : V m c (Pipeline.arrRef spec0 1) i = tableC m c (ix2 (pairRow (species m c) (edgeSrc m c) (edgeDst m c) (edgeOf i)) 1) :=
    (congrFun (entry_c1 m c) i).trans (coeff_tile _ _ _ (1 : Fin 3) _ _ i)
  have h2 : V m c (Pipeline.arrRef spec0 2) i = tableC m c (ix2 (pairRow (species m c) (edgeSrc m c) (edgeDst m c) (edgeOf i)) 2) :=
    (congrFun (entry_c2 m c) i).trans (coeff_tile _ _ _ (2 : Fin 3) _ _ i)
  have h3 : V m c (Pipeline.arrRef spec0 3) i = tableA m c (ix2 (pairRow (species m c) (edgeSrc m c) (edgeDst m c) (edgeOf i)) 0) :=
    (congrFun (entry_a0 m c) i).trans (coeff_tile _ _ _ (0 : Fin 3) _ _ i)
  have h4 : V m c (Pipeline.arrRef spec0 4) i = tableA m c (ix2 (pairRow (species m c) (edgeSrc m c) (edgeDst m c) (edgeOf i)) 1) :=
    (congrFun (entry_a1 m c) i).trans (coeff_tile _ _ _ (1 : Fin 3) _ _ i)
  have h5 : V m c (Pipeline.arrRef spec0 5) i = tableA m c (ix2 (pairRow (species m c) (edgeSrc m c) (edgeDst m c) (edgeOf i)) 2) :=
    (congrFun (entry_a2 m c) i).trans (coeff_tile _ _ _ (2 : Fin 3) _ _ i)
  have h6 : V m c (Pipeline.arrRef spec0 6) i = speciesAt (species m c) (edgeSrc m c (edgeOf i)) :=
    (congrFun (entry_src m c) i).trans (species_tile _ _ i)
  have h7 : V m c (Pipeline.arrRef spec0 7) i = speciesAt (species m c) (edgeDst m c (edgeOf i)) :=
    (congrFun (entry_dst m c) i).trans (species_tile _ _ i)
  have h8 : V m c (Pipeline.arrRef spec0 8) i = distances m c (edgeOf i) :=
    (congrFun (entry_dist m c) i).trans (tileV_apply _ i)
  have h9 : V m c (Pipeline.arrRef spec0 9) i = switch m c (edgeOf i) :=
    (congrFun (entry_sw m c) i).trans (tileV_apply _ i)
  exact lane_congr h0 h1 h2 h3 h4 h5 h6 h7 h8 h9

set_option maxHeartbeats 2000000 in
/-- THE PROGRAM'S RESULT: the host tail of the pair energies. -/
theorem result (c : Dev nD) :
    (Pipeline.afterTail₀ cfgs (dats m) 0 (V0 m) [hostOps1] c main_v87 : S100000.Idx → EReal)
      = tail (edgeSrc m c) (pairEnergy (species m c) (edgeSrc m c) (edgeDst m c) (distances m c) (switch m c) (tableC m c) (tableA m c)) := by
  have h81 : Pipeline.withArrays (cfgs 0).spec c (V0 m c) (fun w => (dats m 0 c).arrAt w (cfgs 0).N)
      (Proc.devRef .tc main_v81) = (dats m 0 c).arrAt 10 cfg0.N :=
    Pipeline.withArrays_arr spec0 launch0.win.arr_inj c _ _ 10
  have harg1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  rw [← edges m c]
  unfold Pipeline.afterTail₀
  show StableHlo.after hostOps1 _ (Proc.devRef .tc main_v87) = _
  after_results
  rw [h81, harg1, final]
  rfl

/-- THE KERNEL PROGRAM'S RUN, READ: every weakly fair execution terminates with the result array at the host tail of the
    pair energies of the argument arrays, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v87) = tail (edgeSrc m c) (pairEnergy (species m c) (edgeSrc m c) (edgeDst m c) (distances m c) (switch m c) (tableC m c) (tableA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v87 (Pipeline.mem_restRefs_of main_v87 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.ResultValue

end
-- ==== Proof.lean ====
/-
  The kernel program and its jnp reference compute the same atomic repulsion energies, at the ideal values.

  Both programs look the species of the two ends of every edge up, take row `s + 92 t` of two coefficient tables, form
  per edge `Z(s) Z(t) φ switch / distance` with `φ = Σ_k c_k exp (-α_k distance)`, scatter-add the per-edge energies into
  the source atoms and scale by one constant. They differ in how they get there: the kernel program gathers six flat
  table columns and the two species arrays, lays everything out in 50000 rows of 128 lanes, and computes the energy
  lane by lane in a pipelined region of 25 blocks with `φ` written out as three terms; the reference gathers whole table
  rows and a table of charges and sums `φ` over the columns. Index by index both are `pairEnergy` of the argument
  arrays (Spec), the kernel side through `KernelHost` / `EntryA` / `EntryB` / `KernelBody` / `KernelRegion` /
  `KernelResult`, the reference side through `RefEdge` over its run read one operation at a time; the law joining the two
  spellings of `φ` needs no finiteness. The last host lines are the same on both sides. The frames are the generated
  ones, and the ideal pass rewrote nothing.
-/
import proofs.«138286_j19310172963097_2_alg».proof.Defs
import proofs.«138286_j19310172963097_2_alg».proof.Proof.Gen.Kernel
import proofs.«138286_j19310172963097_2_alg».proof.Proof.Gen.Kernel.Frame
import proofs.«138286_j19310172963097_2_alg».proof.Proof.Gen.KernelIdeal
import proofs.«138286_j19310172963097_2_alg».proof.Proof.Gen.KernelIdeal.Frame
import proofs.«138286_j19310172963097_2_alg».proof.Proof.Gen.ReferenceIdeal
import proofs.«138286_j19310172963097_2_alg».proof.Proof.Gen.ReferenceIdeal.Run
import proofs.«138286_j19310172963097_2_alg».proof.Proof.Gen.ReferenceIdeal.Read
import proofs.«138286_j19310172963097_2_alg».proof.Proof.Gen.Pre_finite_inputs
import proofs.«138286_j19310172963097_2_alg».proof.Proof.RefEdge
import proofs.«138286_j19310172963097_2_alg».proof.Proof.KernelResult
import Idealize.ShloMosaic.Adequacy
import Idealize.ShloMosaic.Init

noncomputable section

namespace Cert.Proof

open Idealize.ShloMosaic Idealize.ShloMosaic.TcCoe Idealize.SL.Sem Cert.PairRepulsion

/-- The reference's result term is the same host tail of the pair energies of ITS argument arrays. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v64 (F := Ideal) m' c
      = Cert.KernelIdeal.ResultValue.tail
          (m' ((c.tc : Thread Cert.ReferenceIdeal.nD Cert.ReferenceIdeal.τ).loc Cert.ReferenceIdeal.main_arg1))
          (pairEnergy
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))) := by
  rw [Cert.ReferenceIdeal.Read.val_main_v64_eq]
  unfold Cert.ReferenceIdeal.Read.val_main_v64 Cert.ReferenceIdeal.Read.val_main_v62
  rw [Cert.ReferenceIdeal.RefValue.edge_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- From memories agreeing on the arguments both programs end with the host tail of the same pair energies. -/
theorem algebraic : Cert.algebraic_KernelIdeal_ReferenceIdeal := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  rw [ref_result, (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
